-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg6 : FVec F S256x128 .f32) (main_arg7 : FVec F S256x128 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S100000x256 .f32) (main_arg1 : FVec F S100000x256 .f32) (main_arg2 : IVec S1600000 32) (main_arg3 : IVec S1600000 32) (main_arg4 : FVec F S1600000 .f32) (main_arg5 : FVec F S1600000 .f32) (main_arg6 : FVec F S256x128 .f32) (main_arg7 : FVec F S256x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg6 main_arg7 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 42
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000, .f32⟩
  | .hbm, ⟨6, _⟩ => ⟨S256x128, .f32⟩
  | .hbm, ⟨7, _⟩ => ⟨S256x128, .f32⟩
  | .hbm, ⟨8, _⟩ => ⟨S100000x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x128, .f32⟩
  | .local _ .vmem, ⟨5, _⟩ => ⟨S256x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000, .f32⟩
  | .hbm, ⟨6, _⟩ => ⟨S256x128, .f32⟩
  | .hbm, ⟨7, _⟩ => ⟨S256x128, .f32⟩
  | .hbm, ⟨8, _⟩ => ⟨S100000x128, .f32⟩
  | .hbm, ⟨9, _⟩ => ⟨S_, .f32⟩
  | .hbm, ⟨10, _⟩ => ⟨S100000x128, .f32⟩
  | .hbm, ⟨11, _⟩ => ⟨S100000x128, .i1⟩
  | .hbm, ⟨12, _⟩ => ⟨S_, .f32⟩
  | .hbm, ⟨13, _⟩ => ⟨S100000x128, .f32⟩
  | .hbm, ⟨14, _⟩ => ⟨S100000x128, .i1⟩
  | .hbm, ⟨15, _⟩ => ⟨S_, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v1 : Ref sig .tc := ⟨.hbm, 23, rfl⟩
abbrev main_v2 : Ref sig .tc := ⟨.hbm, 24, rfl⟩
abbrev main_call1_cst : Ref sig .tc := ⟨.hbm, 25, rfl⟩
abbrev main_call1_v0 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibElu.lean ====
/-
  Two spellings of ELU, on the extended reals.

  jax's `elu` is `select (x > 0) x (1 · expm1 (select (x > 0) 0 x))`: the inner select keeps the exponential's
  argument non-positive.  A kernel writes `select (x > 0) x (exp x − 1)`.  On the extended reals `expm1 y` IS
  `exp y − 1`, and where `x > 0` fails the inner select returns `x`, so the two agree at every entry, the
  infinities included: no law is used beyond `1 · y = y`.
-/
import Idealize.ShloMosaic.PureOps.Ideal.Laws
import Idealize.ShloMosaic.Lib.IdealHost

noncomputable section

namespace Cert.Elu

open Idealize.ShloMosaic

/-- The kernel's spelling on one value. -/
def eluS (u : Ideal .f32) : Ideal .f32 :=
  Scalar.select (FloatOps.cmpf .ogt u (Scalar.ofBits .f32 0x00000000#32)) u
    (FloatOps.subf (FloatOps.exp u) (Scalar.ofBits .f32 0x3F800000#32))

/-- jax's spelling on one value, the three constants being the float zero, zero and one. -/
def eluHostS (u : Ideal .f32) : Ideal .f32 :=
  Scalar.select (FloatOps.cmpf .ogt u (FloatOps.ofBits .f32 0x00000000#32)) u
    (FloatOps.mulf (FloatOps.ofBits .f32 0x3F800000#32)
      (FloatOps.hostUnary .expm1 (Scalar.select (FloatOps.cmpf .ogt u (FloatOps.ofBits .f32 0x00000000#32)) (FloatOps.ofBits .f32 0x00000000#32) u)))

/-- The two spellings agree on every extended real. -/
theorem eluHostS_eq (u : Ideal .f32) : eluHostS u = eluS u := by
  unfold eluHostS eluS Scalar.select
  by_cases hc : FloatOps.cmpf (F := Ideal) .ogt u (FloatOps.ofBits .f32 0x00000000#32) = 1
  · have hc' : FloatOps.cmpf (F := Ideal) .ogt u (Scalar.ofBits .f32 0x00000000#32) = 1 := hc
    rw [if_pos hc, if_pos hc']
  · have hc' : ¬ FloatOps.cmpf (F := Ideal) .ogt u (Scalar.ofBits .f32 0x00000000#32) = 1 := hc
    rw [if_neg hc, if_neg hc', if_neg hc]
    show Ideal.ofBits .f32 0x3F800000#32 * (Ideal.exp u - 1) = Ideal.exp u - Ideal.ofBits .f32 0x3F800000#32
    rw [Ideal.ofBits_one_f32, one_mul]

end Cert.Elu

end
-- ==== Proof.Message.lean ====
/-
  The two messages a node sends, on the extended reals.

  With `h₁ = Σ_q x[n,q]·Wμ[q,c]` and `h₂ = Σ_q s[n,q]·Wσ[q,c]`, entry `(n, c)` of the mean message is
  `elu h₁ · a` and of the variance message `(relu h₂ · a) · a`, where `a = exp (-1 · relu h₂)` and
  `relu h = max h 0`. An entry depends on row `n` of the two feature matrices only, so the messages of a block of
  rows are the same function of that block.

  Two spellings compute them. The vector unit forms each product into a zero accumulator and writes ELU as
  `select (h > 0) h (exp h − 1)`. The host uses `dot_general` and jax's ELU,
  `select (h > 0) h (1 · expm1 (select (h > 0) 0 h))`, its constants rank-0 values broadcast over the array. Each
  product read at an entry is the same finite sum, the two ELUs agree on every extended real, and every other
  operation is the same pointwise one: both spellings are the functions below, for any number of rows.
-/
import proofs.«125727_j25537875542212_1_alg».proof.Proof.LibPlainDot
import proofs.«125727_j25537875542212_1_alg».proof.Proof.LibElu

noncomputable section

open scoped BigOperators

namespace Cert.Message

open Idealize.ShloMosaic Idealize.ShloMosaic.ValueIdx

/-- `max h 0`. -/
def relu (h : Ideal .f32) : Ideal .f32 := FloatOps.maximumf h (Scalar.ofBits .f32 0x00000000#32)

/-- The attenuation `exp (-1 · max h 0)`. -/
def att (h : Ideal .f32) : Ideal .f32 := FloatOps.exp (FloatOps.mulf (Scalar.ofBits .f32 0xBF800000#32) (relu h))

/-- One entry of the mean message from its two contracted sums. -/
def cellMu (h₁ h₂ : Ideal .f32) : Ideal .f32 := FloatOps.mulf (Cert.Elu.eluS h₁) (att h₂)

/-- One entry of the variance message from its contracted sum. -/
def cellSig (h₂ : Ideal .f32) : Ideal .f32 := FloatOps.mulf (FloatOps.mulf (relu h₂) (att h₂)) (att h₂)

variable {R : Nat}

/-- Entry `(p, c)` of a feature matrix times a weight matrix. -/
def dotAt (x : FVec Ideal ⟨2, ![R, 256]⟩ .f32) (w : FVec Ideal ⟨2, ![256, 128]⟩ .f32) (p : Fin R) (c : Fin 128) : Ideal .f32 :=
  ∑ q : Fin 256, x (ix2 p q) * w (ix2 q c)

/-- The mean message of `R` nodes. -/
def msgMu (x s : FVec Ideal ⟨2, ![R, 256]⟩ .f32) (wm ws : FVec Ideal ⟨2, ![256, 128]⟩ .f32) : FVec Ideal ⟨2, ![R, 128]⟩ .f32 :=
  fun i => cellMu (dotAt x wm (i 0) (i 1)) (dotAt s ws (i 0) (i 1))

/-- The variance message of `R` nodes. -/
def msgSig (s : FVec Ideal ⟨2, ![R, 256]⟩ .f32) (ws : FVec Ideal ⟨2, ![256, 128]⟩ .f32) : FVec Ideal ⟨2, ![R, 128]⟩ .f32 :=
  fun i => cellSig (dotAt s ws (i 0) (i 1))

/-- An entry of the mean message reads one row of each feature matrix. -/
theorem msgMu_apply (x s : FVec Ideal ⟨2, ![R, 256]⟩ .f32) (wm ws : FVec Ideal ⟨2, ![256, 128]⟩ .f32) (p : Fin R) (c : Fin 128) :
    msgMu x s wm ws (ix2 p c) = cellMu (dotAt x wm p c) (dotAt s ws p c) := rfl

theorem msgSig_apply (s : FVec Ideal ⟨2, ![R, 256]⟩ .f32) (ws : FVec Ideal ⟨2, ![256, 128]⟩ .f32) (p : Fin R) (c : Fin 128) :
    msgSig s ws (ix2 p c) = cellSig (dotAt s ws p c) := rfl

section Unit

variable (d : DotDims ⟨2, ![R, 256]⟩ ⟨2, ![256, 128]⟩ ⟨2, ![R, 128]⟩) (hd : Cert.PlainDot.IsPlain d) (prec : Option ContractPrecision)
variable (v0 v9 : FVec Ideal ⟨2, ![R, 256]⟩ .f32) (v1 v10 : FVec Ideal ⟨2, ![256, 128]⟩ .f32)

/-- The vector unit's `max (s·Wσ) 0`. -/
def unitRelu : FVec Ideal ⟨2, ![R, 128]⟩ .f32 :=
  maximumf (matmul d prec v9 v10 (constant ⟨2, ![R, 128]⟩ .f32 0x00000000#32)) (broadcast ⟨2, ![R, 128]⟩ (Scalar.ofBits .f32 0x00000000#32))

/-- The vector unit's attenuation. -/
def unitAtt : FVec Ideal ⟨2, ![R, 128]⟩ .f32 :=
  exp (mulf (broadcast ⟨2, ![R, 128]⟩ (Scalar.ofBits .f32 0xBF800000#32)) (unitRelu d prec v9 v10))

/-- The vector unit's mean message: the product, ELU as `select (h > 0) h (exp h − 1)`, times the attenuation. -/
def unitMu : FVec Ideal ⟨2, ![R, 128]⟩ .f32 :=
  mulf (select (cmpf .ogt (matmul d prec v0 v1 (constant ⟨2, ![R, 128]⟩ .f32 0x00000000#32)) (broadcast ⟨2, ![R, 128]⟩ (Scalar.ofBits .f32 0x00000000#32)))
      (matmul d prec v0 v1 (constant ⟨2, ![R, 128]⟩ .f32 0x00000000#32))
      (subf (exp (matmul d prec v0 v1 (constant ⟨2, ![R, 128]⟩ .f32 0x00000000#32))) (broadcast ⟨2, ![R, 128]⟩ (Scalar.ofBits .f32 0x3F800000#32))))
    (unitAtt d prec v9 v10)

/-- The vector unit's variance message. -/
def unitSig : FVec Ideal ⟨2, ![R, 128]⟩ .f32 :=
  mulf (mulf (unitRelu d prec v9 v10) (unitAtt d prec v9 v10)) (unitAtt d prec v9 v10)

include hd in
theorem unitMu_eq : unitMu d prec v0 v9 v1 v10 = msgMu v0 v9 v1 v10 := by
  funext i
  obtain ⟨p, c, rfl⟩ : ∃ (p : Fin R) (c : Fin 128), i = ix2 p c := ⟨i 0, i 1, eq_ix2 i⟩
  show cellMu (matmul d prec v0 v1 (constant ⟨2, ![R, 128]⟩ .f32 0x00000000#32) (ix2 p c))
      (matmul d prec v9 v10 (constant ⟨2, ![R, 128]⟩ .f32 0x00000000#32) (ix2 p c)) = cellMu (dotAt v0 v1 p c) (dotAt v9 v10 p c)
  rw [Cert.PlainDot.matmul_zero_apply hd, Cert.PlainDot.matmul_zero_apply hd]
  rfl

include hd in
theorem unitSig_eq : unitSig d prec v9 v10 = msgSig v9 v10 := by
  funext i
  obtain ⟨p, c, rfl⟩ : ∃ (p : Fin R) (c : Fin 128), i = ix2 p c := ⟨i 0, i 1, eq_ix2 i⟩
  show cellSig (matmul d prec v9 v10 (constant ⟨2, ![R, 128]⟩ .f32 0x00000000#32) (ix2 p c)) = cellSig (dotAt v9 v10 p c)
  rw [Cert.PlainDot.matmul_zero_apply hd]
  rfl

end Unit

section Host

variable (d : DotDims ⟨2, ![R, 256]⟩ ⟨2, ![256, 128]⟩ ⟨2, ![R, 128]⟩) (hd : Cert.PlainDot.IsPlain d) (prec : Option ContractPrecision)
variable (b : (⟨0, ![]⟩ : Shape).BroadcastsInDim ⟨2, ![R, 128]⟩ (![] : Fin 0 → Fin 2))
variable (x s : FVec Ideal ⟨2, ![R, 256]⟩ .f32) (wm ws : FVec Ideal ⟨2, ![256, 128]⟩ .f32)

/-- A rank-0 float constant broadcast over the array. -/
def splat (w : BitVec 32) : FVec Ideal ⟨2, ![R, 128]⟩ .f32 :=
  broadcastInDim ⟨2, ![R, 128]⟩ (![] : Fin 0 → Fin 2) b (constant (F := Ideal) ⟨0, ![]⟩ .f32 w)

/-- The host's `max (s·Wσ) 0`. -/
def hostRelu : FVec Ideal ⟨2, ![R, 128]⟩ .f32 := maximumf (Host.dotGeneral d prec s ws) (splat b 0x00000000#32)

/-- The host's attenuation. -/
def hostAtt : FVec Ideal ⟨2, ![R, 128]⟩ .f32 := Host.exp (mulf (splat b 0xBF800000#32) (hostRelu d prec b s ws))

/-- jax's ELU of the host's product: `select (h > 0) h (1 · expm1 (select (h > 0) 0 h))`, the inner zero a rank-0
    constant converted to its own type before it is broadcast. -/
def hostElu : FVec Ideal ⟨2, ![R, 128]⟩ .f32 :=
  select (cmpf .ogt (Host.dotGeneral d prec x wm) (splat b 0x00000000#32)) (Host.dotGeneral d prec x wm)
    (mulf (splat b 0x3F800000#32)
      (Host.expm1 (select (cmpf .ogt (Host.dotGeneral d prec x wm) (splat b 0x00000000#32))
        (broadcastInDim ⟨2, ![R, 128]⟩ (![] : Fin 0 → Fin 2) b (id (constant (F := Ideal) ⟨0, ![]⟩ .f32 0x00000000#32)))
        (Host.dotGeneral d prec x wm))))

/-- The host's mean message. -/
def hostMu : FVec Ideal ⟨2, ![R, 128]⟩ .f32 := mulf (hostElu d prec b x wm) (hostAtt d prec b s ws)

/-- The host's variance message. -/
def hostSig : FVec Ideal ⟨2, ![R, 128]⟩ .f32 := mulf (mulf (hostRelu d prec b s ws) (hostAtt d prec b s ws)) (hostAtt d prec b s ws)

include hd in
theorem hostMu_eq : hostMu d prec b x s wm ws = msgMu x s wm ws := by
  funext i
  obtain ⟨p, c, rfl⟩ : ∃ (p : Fin R) (c : Fin 128), i = ix2 p c := ⟨i 0, i 1, eq_ix2 i⟩
  show FloatOps.mulf (Cert.Elu.eluHostS (Host.dotGeneral d prec x wm (ix2 p c))) (att (Host.dotGeneral d prec s ws (ix2 p c)))
      = cellMu (dotAt x wm p c) (dotAt s ws p c)
  rw [Cert.Elu.eluHostS_eq, Cert.PlainDot.dotGeneral_apply hd, Cert.PlainDot.dotGeneral_apply hd]
  rfl

include hd in
theorem hostSig_eq : hostSig d prec b s ws = msgSig s ws := by
  funext i
  obtain ⟨p, c, rfl⟩ : ∃ (p : Fin R) (c : Fin 128), i = ix2 p c := ⟨i 0, i 1, eq_ix2 i⟩
  show cellSig (Host.dotGeneral d prec s ws (ix2 p c)) = cellSig (dotAt s ws p c)
  rw [Cert.PlainDot.dotGeneral_apply hd]
  rfl

end Host

end Cert.Message

end
-- ==== Proof.Aggregate.lean ====
/-
  The sparse aggregation both programs end with, as one function of the message table.

  For each of the 1 600 000 edges `(row e, col e)` with weight `adj e`: take row `col e` of the [100000, 128] message
  table (a negative column index first wrapped by the number of nodes, as indexing by an array does), scale it by the
  edge's weight, and add it into row `row e` of an array of zeros. The dimension records of the gather and of the
  scatter and the side conditions of the four broadcasts are parameters: each program states its own, and any two
  of them give the same function.
-/
import Idealize.ShloMosaic.PureOps.Ideal

noncomputable section

namespace Cert.Aggregate

open Idealize.ShloMosaic

abbrev SN : Shape := ⟨2, ![100000, 128]⟩
abbrev SE : Shape := ⟨1, ![1600000]⟩
abbrev SE1 : Shape := ⟨2, ![1600000, 1]⟩
abbrev SEC : Shape := ⟨2, ![1600000, 128]⟩
abbrev S0 : Shape := ⟨0, ![]⟩

/-- `out[row e] += adj e · msg[col e]` over the edges, from zeros. -/
def aggregate (g : GatherDims SN SE1 SEC) (sc : ScatterDims SN SE1 SEC)
    (b0 : S0.BroadcastsInDim SN (![] : Fin 0 → Fin 2)) (b1 : SE.BroadcastsInDim SE1 (![0] : Fin 1 → Fin 2))
    (b2 : S0.BroadcastsInDim SE (![] : Fin 0 → Fin 1)) (b3 : SE1.BroadcastsInDim SEC (![0, 1] : Fin 2 → Fin 2))
    (msg : FVec Ideal SN .f32) (row col : IVec SE 32) (adj : FVec Ideal SE .f32) : FVec Ideal SN .f32 :=
  Host.scatterAdd sc (broadcastInDim SN ![] b0 (constant (F := Ideal) S0 .f32 0x00000000#32)) (broadcastInDim SE1 ![0] b1 row)
    (mulf (broadcastInDim SEC ![0, 1] b3 (broadcastInDim SE1 ![0] b1 adj))
      (Host.gather g msg (broadcastInDim SE1 ![0] b1
        (select (cmpi .slt col (broadcastInDim SE ![] b2 (constantI S0 32 0#32)))
          (addi col (broadcastInDim SE ![] b2 (constantI S0 32 100000#32))) col))))

end Cert.Aggregate

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelValue.lean ====
/-
  What the kernel's program leaves in its two results.

  The pallas_call walks 25 blocks of 4000 nodes. At a block it forms the two products of the block's rows of the
  feature matrices with the whole weight matrices and writes the block's mean and variance messages: the
  specification's messages (`Cert.Message`) of those 4000 rows. An entry of a message reads one row of each feature
  matrix, and row `p` of block `t` is row `4000·t + p` of the array, so what point `t` writes back is block `t` of
  the message of all 100000 nodes; the 25 blocks cover the table. The host operations after the call aggregate each
  table over the edges, and write no argument.
-/
import proofs.«125727_j25537875542212_1_alg».proof.Proof.Gen.KernelIdeal.Frame
import proofs.«125727_j25537875542212_1_alg».proof.Proof.Message
import proofs.«125727_j25537875542212_1_alg».proof.Proof.Aggregate
import proofs.«125727_j25537875542212_1_alg».proof.Proof.LibHostWalk
import Idealize.ShloMosaic.Lib.Pipeline.Value

set_option maxRecDepth 16384

noncomputable section

namespace Cert.KernelIdeal.Hand

open Cert.KernelIdeal Cert.KernelIdeal.Gen Cert.KernelIdeal.Facts₀ Idealize.ShloMosaic Idealize.ShloMosaic.TcCoe Idealize.SL.Sem Idealize.ShloMosaic.StableHlo
open Idealize.ShloMosaic.ValueIdx
open Idealize.ShloMosaic.Pipeline (Dat)
open Cert.Message Cert.Aggregate Cert.HostWalk

variable (m : (ℓ : Loc nD τ sig) → Buf (Elt Ideal) ℓ) (ρ : Dev nD → PrngReg)

theorem hz : (![0, 0] : Fin 2 → Nat) = fun _ => 0 := funext fun a => by fin_cases a <;> rfl

/-- The kernel's products contract the features' second axis against the weights' first. -/
theorem plain : Cert.PlainDot.IsPlain dot_S4000x256_S256x128_S4000x128_1_0_0_1_n_n := ⟨rfl, rfl, rfl, rfl, rfl, rfl⟩

/-- The first store's value is the mean message of the loaded rows. -/
theorem pay3_eq (v0 : Vec Ideal S4000x256 .f32) (v1 : Vec Ideal S256x128 .f32) (v9 : Vec Ideal S4000x256 .f32) (v10 : Vec Ideal S256x128 .f32) :
    k0_pay3 v0 v1 v9 v10 = msgMu v0 v9 v1 v10 :=
  unitMu_eq dot_S4000x256_S256x128_S4000x128_1_0_0_1_n_n plain (some .fp32) v0 v9 v1 v10

/-- The second store's value is the variance message of the loaded rows. -/
theorem pay4_eq (v9 : Vec Ideal S4000x256 .f32) (v10 : Vec Ideal S256x128 .f32) :
    k0_pay4 v9 v10 = msgSig v9 v10 :=
  unitSig_eq dot_S4000x256_S256x128_S4000x128_1_0_0_1_n_n plain (some .fp32) v9 v10

/-- The printed index maps over the grid: the feature windows and the result windows are at block row `t`, column
    block 0; the weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of a feature window's block at point `t` is row `4000·t + p` of its array. -/
theorem iblk0_apply (c : Dev nD) (t : Fin cfg0.N) (p : Fin 4000) (k : Fin 256) (n : Fin 100000) (hn : n.val = t.val * 4000 + p.val) :
    (iblk m c 0 t : Vec Ideal S4000x256 .f32) (ix2 p k) = (V m c main_arg0 : Vec Ideal S100000x256 .f32) (ix2 n k) := by
  obtain ⟨e0, e1, -⟩ := idx_facts t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 4000 + 1 * p.val = n.val; omega
  | ⟨1, _⟩ => show win0_0.index t (1 : Fin 2) * 256 + 1 * k.val = k.val; omega

theorem iblk1_apply (c : Dev nD) (t : Fin cfg0.N) (p : Fin 4000) (k : Fin 256) (n : Fin 100000) (hn : n.val = t.val * 4000 + p.val) :
    (iblk m c 1 t : Vec Ideal S4000x256 .f32) (ix2 p k) = (V m c main_arg1 : Vec Ideal S100000x256 .f32) (ix2 n k) := by
  obtain ⟨-, -, e0, e1, -⟩ := idx_facts t
  show V m c main_arg1 (((cfg0.win 1).blk t).view.emb (ix2 p k)) = V m c main_arg1 (ix2 n k)
  refine congrArg (V m c main_arg1) (funext fun a => Fin.ext ?_)
  match a with
  | ⟨0, _⟩ => show win0_1.index t (0 : Fin 2) * 4000 + 1 * p.val = n.val; omega
  | ⟨1, _⟩ => show win0_1.index t (1 : Fin 2) * 256 + 1 * k.val = k.val; omega

/-- A weight window's block at any point is the whole weight matrix. -/
theorem iblk2_apply (c : Dev nD) (t : Fin cfg0.N) (k : Fin 256) (q : Fin 128) :
    (iblk m c 2 t : Vec Ideal S256x128 .f32) (ix2 k q) = (V m c main_arg6 : Vec Ideal S256x128 .f32) (ix2 k q) := by
  obtain ⟨-, -, -, -, e0, e1, -⟩ := idx_facts t
  show V m c main_arg6 (((cfg0.win 2).blk t).view.emb (ix2 k q)) = V m c main_arg6 (ix2 k q)
  refine congrArg (V m c main_arg6) (funext fun a => Fin.ext ?_)
  match a with
  | ⟨0, _⟩ => show win0_2.index t (0 : Fin 2) * 256 + 1 * k.val = k.val; omega
  | ⟨1, _⟩ => show win0_2.index t (1 : Fin 2) * 128 + 1 * q.val = q.val; omega

theorem iblk3_apply (c : Dev nD) (t : Fin cfg0.N) (k : Fin 256) (q : Fin 128) :
    (iblk m c 3 t : Vec Ideal S256x128 .f32) (ix2 k q) = (V m c main_arg7 : Vec Ideal S256x128 .f32) (ix2 k q) := by
  obtain ⟨-, -, -, -, -, -, e0, e1, -⟩ := idx_facts t
  show V m c main_arg7 (((cfg0.win 3).blk t).view.emb (ix2 k q)) = V m c main_arg7 (ix2 k q)
  refine congrArg (V m c main_arg7) (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

/-- The mean message of all nodes, of the arrays as the call finds them. -/
abbrev tableMu (c : Dev nD) : Vec Ideal S100000x128 .f32 :=
  msgMu (R := 100000) (V m c main_arg0) (V m c main_arg1) (V m c main_arg6) (V m c main_arg7)

/-- The variance message of all nodes. -/
abbrev tableSig (c : Dev nD) : Vec Ideal S100000x128 .f32 :=
  msgSig (R := 100000) (V m c main_arg1) (V m c main_arg7)

/-- Entry `(p, q)` of a result window's block at point `t` is entry `(4000·t + p, q)` of its array. -/
theorem emb4 (t : Fin cfg0.N) (p : Fin 4000) (q : Fin 128) (n : Fin 100000) (hn : n.val = t.val * 4000 + p.val) :
    ((cfg0.win 4).blk t).view.emb (ix2 p q) = (ix2 n q : S100000x128.Idx) := by
  obtain ⟨-, -, -, -, -, -, -, -, e0, e1, -⟩ := idx_facts t
  refine funext fun a => Fin.ext ?_
  match a with
  | ⟨0, _⟩ => show win0_4.index t (0 : Fin 2) * 4000 + 1 * p.val = n.val; omega
  | ⟨1, _⟩ => show win0_4.index t (1 : Fin 2) * 128 + 1 * q.val = q.val; omega

theorem emb5 (t : Fin cfg0.N) (p : Fin 4000) (q : Fin 128) (n : Fin 100000) (hn : n.val = t.val * 4000 + p.val) :
    ((cfg0.win 5).blk t).view.emb (ix2 p q) = (ix2 n q : S100000x128.Idx) := by
  obtain ⟨-, -, -, -, -, -, -, -, -, -, e0, e1⟩ := idx_facts t
  refine funext fun a => Fin.ext ?_
  match a with
  | ⟨0, _⟩ => show win0_5.index t (0 : Fin 2) * 4000 + 1 * p.val = n.val; omega
  | ⟨1, _⟩ => show win0_5.index t (1 : Fin 2) * 128 + 1 * q.val = q.val; omega

/-- The node a block row stands for. -/
def node (t : Fin cfg0.N) (p : Fin 4000) : Fin 100000 :=
  ⟨t.val * 4000 + p.val, by have ht : t.val < 25 := Nat.lt_of_lt_of_eq t.isLt N_0; have := p.isLt; omega⟩

/-- What point `t` writes back of the mean message is block `t` of the table. -/
theorem flushed4_eq (c : Dev nD) (t : Fin cfg0.N) :
    (dats m 0 c).flushed 4 t = ((cfg0.win 4).blk t).view.read (Elt Ideal) (tableMu m c) := by
  show (cfg0.win 4).cut (grid0.coords t) ((dats m 0 c).after 4 t) = _
  rw [after0_4]
  unfold out0_4
  rw [View.canon_unit_zero hz]
  simp only [View.ld_unit_zero (S := S4000x256) hz, View.ld_unit_zero (S := S256x128) hz]
  rw [pay3_eq]
  funext j
  obtain ⟨p, q, rfl⟩ : ∃ (p : Fin 4000) (q : Fin 128), j = ix2 p q := ⟨j 0, j 1, eq_ix2 j⟩
  show msgMu (R := 4000) (iblk m c 0 t) (iblk m c 1 t) (iblk m c 2 t) (iblk m c 3 t) (ix2 p q)
      = tableMu m c (((cfg0.win 4).blk t).view.emb (ix2 p q))
  rw [emb4 t p q (node t p) rfl]
  show cellMu (dotAt (iblk m c 0 t) (iblk m c 2 t) p q) (dotAt (iblk m c 1 t) (iblk m c 3 t) p q)
      = cellMu (dotAt (V m c main_arg0) (V m c main_arg6) (node t p) q) (dotAt (V m c main_arg1) (V m c main_arg7) (node t p) q)
  unfold dotAt
  simp only [iblk0_apply m c t p _ (node t p) rfl, iblk1_apply m c t p _ (node t p) rfl, iblk2_apply m c t, iblk3_apply m c t]

/-- What point `t` writes back of the variance message is block `t` of the table. -/
theorem flushed5_eq (c : Dev nD) (t : Fin cfg0.N) :
    (dats m 0 c).flushed 5 t = ((cfg0.win 5).blk t).view.read (Elt Ideal) (tableSig m c) := by
  show (cfg0.win 5).cut (grid0.coords t) ((dats m 0 c).after 5 t) = _
  rw [after0_5]
  unfold out0_5
  rw [View.canon_unit_zero hz]
  simp only [View.ld_unit_zero (S := S4000x256) hz, View.ld_unit_zero (S := S256x128) hz]
  rw [pay4_eq]
  funext j
  obtain ⟨p, q, rfl⟩ : ∃ (p : Fin 4000) (q : Fin 128), j = ix2 p q := ⟨j 0, j 1, eq_ix2 j⟩
  show msgSig (R := 4000) (iblk m c 1 t) (iblk m c 3 t) (ix2 p q)
      = tableSig m c (((cfg0.win 5).blk t).view.emb (ix2 p q))
  rw [emb5 t p q (node t p) rfl]
  show cellSig (dotAt (iblk m c 1 t) (iblk m c 3 t) p q) = cellSig (dotAt (V m c main_arg1) (V m c main_arg7) (node t p) q)
  unfold dotAt
  simp only [iblk1_apply m c t p _ (node t p) rfl, iblk3_apply m c t]

/-- An index of a result array is in point `t`'s block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v0_0).slice (win0_4.rect t)).set ↔ _
  rw [View.set_slice_whole, Rect.mem_set_unit]
  exact Iff.rfl

theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v0_1).slice (win0_5.rect t)).set ↔ _
  rw [View.set_slice_whole, Rect.mem_set_unit]
  exact Iff.rfl

/-- The point whose block holds node `n`: `n / 4000`. -/
def pointOf (i : S100000x128.Idx) : Fin cfg0.N :=
  ⟨(i 0).val / 4000, by rw [show cfg0.N = 25 from N_0]; have := idx2_lt0 i; omega⟩

/-- The mean-message table after the call. -/
theorem final4 (c : Dev nD) : (dats m 0 c).arrAt 4 cfg0.N = tableMu m c :=
  (dats m 0 c).arrAt_eq_of_cover 4 (tableMu m c) (fun t _ => flushed4_eq m c t) fun i => by
    refine ⟨pointOf i, flush0_4 _, ?_⟩
    rw [mem_blk4]
    obtain ⟨-, -, -, -, -, -, -, -, e0, e1, -⟩ := idx_facts (pointOf i)
    have h0 := idx2_lt0 i
    have h1 := idx2_lt1 i
    have hp : (pointOf i).val = (i 0).val / 4000 := rfl
    intro a
    match a with
    | ⟨0, _⟩ => show win0_4.index (pointOf i) (0 : Fin 2) * 4000 ≤ (i 0).val ∧ (i 0).val < win0_4.index (pointOf i) (0 : Fin 2) * 4000 + 4000; omega
    | ⟨1, _⟩ => show win0_4.index (pointOf i) (1 : Fin 2) * 128 ≤ (i 1).val ∧ (i 1).val < win0_4.index (pointOf i) (1 : Fin 2) * 128 + 128; omega

/-- The variance-message table after the call. -/
theorem final5 (c : Dev nD) : (dats m 0 c).arrAt 5 cfg0.N = tableSig m c :=
  (dats m 0 c).arrAt_eq_of_cover 5 (tableSig m c) (fun t _ => flushed5_eq m c t) fun i => by
    refine ⟨pointOf i, flush0_5 _, ?_⟩
    rw [mem_blk5]
    obtain ⟨-, -, -, -, -, -, -, -, -, -, e0, e1⟩ := idx_facts (pointOf i)
    have h0 := idx2_lt0 i
    have h1 := idx2_lt1 i
    have hp : (pointOf i).val = (i 0).val / 4000 := rfl
    intro a
    match a with
    | ⟨0, _⟩ => show win0_5.index (pointOf i) (0 : Fin 2) * 4000 ≤ (i 0).val ∧ (i 0).val < win0_5.index (pointOf i) (0 : Fin 2) * 4000 + 4000; omega
    | ⟨1, _⟩ => show win0_5.index (pointOf i) (1 : Fin 2) * 128 ≤ (i 1).val ∧ (i 1).val < win0_5.index (pointOf i) (1 : Fin 2) * 128 + 128; omega

/-- Result 0 through the host operations after the call, from any contents. -/
theorem read_v13 (W : Valuation τ sig (Elt Ideal)) :
    after (hostOps1 (F := Ideal)) W (main_v13 : DevRef τ sig)
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
          (W (main_v0_0 : DevRef τ sig)) (W (main_arg2 : DevRef τ sig)) (W (main_arg3 : DevRef τ sig)) (W (main_arg4 : DevRef τ sig)) := by
  walk_back []
  rfl

/-- Result 1 through the host operations after the call, from any contents. -/
theorem read_v26 (W : Valuation τ sig (Elt Ideal)) :
    after (hostOps1 (F := Ideal)) W (main_v26 : DevRef τ sig)
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
          (W (main_v0_1 : DevRef τ sig)) (W (main_arg2 : DevRef τ sig)) (W (main_arg3 : DevRef τ sig)) (W (main_arg5 : DevRef τ sig)) := by
  walk_back []
  rfl

/-- The core's buffers as the host operations after the call find them: the call's arrays as it left them, every
    other buffer as launched. -/
abbrev atExit (c : Dev nD) : Valuation τ sig (Elt Ideal) :=
  Pipeline.withArrays (cfgs 0).spec c (V0 m c) fun w => (dats m 0 c).arrAt w (cfgs 0).N

theorem atExit_v0_0 (c : Dev nD) : atExit m c (main_v0_0 : DevRef τ sig) = tableMu m c :=
  (Pipeline.withArrays_arr spec0 launch0.win.arr_inj c _ _ 4).trans (final4 m c)

theorem atExit_v0_1 (c : Dev nD) : atExit m c (main_v0_1 : DevRef τ sig) = tableSig m c :=
  (Pipeline.withArrays_arr spec0 launch0.win.arr_inj c _ _ 5).trans (final5 m c)

theorem atExit_arg2 (c : Dev nD) : atExit m c (main_arg2 : DevRef τ sig) = m ((c.tc : Thread nD τ).loc main_arg2) :=
  (Pipeline.withArrays_of_ne spec0 c (V0 m c) _ main_arg2 (by decide)).trans (V_main_arg2 m c)
theorem atExit_arg3 (c : Dev nD) : atExit m c (main_arg3 : DevRef τ sig) = m ((c.tc : Thread nD τ).loc main_arg3) :=
  (Pipeline.withArrays_of_ne spec0 c (V0 m c) _ main_arg3 (by decide)).trans (V_main_arg3 m c)
theorem atExit_arg4 (c : Dev nD) : atExit m c (main_arg4 : DevRef τ sig) = m ((c.tc : Thread nD τ).loc main_arg4) :=
  (Pipeline.withArrays_of_ne spec0 c (V0 m c) _ main_arg4 (by decide)).trans (V_main_arg4 m c)
theorem atExit_arg5 (c : Dev nD) : atExit m c (main_arg5 : DevRef τ sig) = m ((c.tc : Thread nD τ).loc main_arg5) :=
  (Pipeline.withArrays_of_ne spec0 c (V0 m c) _ main_arg5 (by decide)).trans (V_main_arg5 m c)

/-- Result 0 after the whole program: the aggregation of the mean-message table. -/
theorem tail13 (c : Dev nD) :
    Pipeline.afterTail₀ cfgs (dats m) 0 (V0 m) [hostOps1] c main_v13
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1 (tableMu m c) (m ((c.tc : Thread nD τ).loc main_arg2)) (m ((c.tc : Thread nD τ).loc main_arg3)) (m ((c.tc : Thread nD τ).loc main_arg4)) := by
  unfold Pipeline.afterTail₀
  show after hostOps1 (atExit m c) (main_v13 : DevRef τ sig) = _
  rw [read_v13, atExit_v0_0, atExit_arg2, atExit_arg3, atExit_arg4]

/-- Result 1 after the whole program: the aggregation of the variance-message table. -/
theorem tail26 (c : Dev nD) :
    Pipeline.afterTail₀ cfgs (dats m) 0 (V0 m) [hostOps1] c main_v26
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1 (tableSig m c) (m ((c.tc : Thread nD τ).loc main_arg2)) (m ((c.tc : Thread nD τ).loc main_arg3)) (m ((c.tc : Thread nD τ).loc main_arg5)) := by
  unfold Pipeline.afterTail₀
  show after hostOps1 (atExit m c) (main_v26 : DevRef τ sig) = _
  rw [read_v26, atExit_v0_1, atExit_arg2, atExit_arg3, atExit_arg5]

/-- The kernel program's run: each result at the aggregation of the specified message of the arguments, the
    arguments unchanged. -/
theorem run : θ_run defs (onTc (τ := τ) (main (F := Ideal))) ⟨m, fun _ => 0, ρ⟩ fun r => ∀ c : Dev nD,
      r.2.mem ((c.tc : Thread nD τ).loc main_v13)
        = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
            (msgMu (m ((c.tc : Thread nD τ).loc main_arg0)) (m ((c.tc : Thread nD τ).loc main_arg1)) (m ((c.tc : Thread nD τ).loc main_arg6)) (m ((c.tc : Thread nD τ).loc main_arg7)))
            (m ((c.tc : Thread nD τ).loc main_arg2)) (m ((c.tc : Thread nD τ).loc main_arg3)) (m ((c.tc : Thread nD τ).loc main_arg4))
      ∧ r.2.mem ((c.tc : Thread nD τ).loc main_v26)
        = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
            (msgSig (m ((c.tc : Thread nD τ).loc main_arg1)) (m ((c.tc : Thread nD τ).loc main_arg7)))
            (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v13 (Pipeline.mem_restRefs_of main_v13 (by decide) (by decide))).trans (tail13 m c),
      ((h c).2 main_v26 (Pipeline.mem_restRefs_of main_v26 (by decide) (by decide))).trans (tail26 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 2).trans (((dats m 0 c).arrAt_in 2 rfl _).trans ((A_eq m c 2).trans (V_main_arg6 m c))),
      ((h c).1 3).trans (((dats m 0 c).arrAt_in 3 rfl _).trans ((A_eq m c 3).trans (V_main_arg7 m c)))⟩)
    (run_main m ρ)

end Cert.KernelIdeal.Hand

end
-- ==== Proof.RefRun.lean ====
/-
  The reference program's @main as one straight line of host operations, and its run.

  The reference computes the messages on the host: two matrix products, jax's ELU on the first (a function the module
  calls, which in turn calls the two `where` helpers), a ReLU on the second (another call), the attenuation
  `exp (-1 · relu)`, the two products that form the mean and the variance message; then, per output, the
  aggregation — a row gather at the edges' columns, the per-edge weight, a scatter-add at the edges' rows. A call
  executes the callee's body on the caller's buffers, so the callee's operations are listed here at the call site,
  over the call's record of buffers. Every weakly fair execution of @main terminates with every buffer at the fold
  of this line over the launch contents.
-/
import proofs.«125727_j25537875542212_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each callee's body in place of its call. -/
abbrev ops : List (HloOp τ sig (Elt F)) :=
  [ binary main_arg0 main_arg6 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v0) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v0) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v0) main_call0.v7 main_call0.call1.v0 select,
    binary main_arg1 main_arg7 main_v2 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v2) main_call1.v0 main_call1.v1 maximumf,
    nullary main_cst (constant S_ .f32 0xBF800000#32),
    unary main_cst main_v4 (broadcastInDim S100000x128 ![] bcast_S_S100000x128 : (⟨S_, .f32⟩ : BufTy).Contents (Elt F) → (⟨S100000x128, .f32⟩ : BufTy).Contents (Elt F)),
    binary main_v4 main_v3 main_v5 (mulf : (⟨S100000x128, .f32⟩ : BufTy).Contents (Elt F) → (⟨S100000x128, .f32⟩ : BufTy).Contents (Elt F) → (⟨S100000x128, .f32⟩ : BufTy).Contents (Elt F)),
    unary main_v5 main_v6 (Host.exp : (⟨S100000x128, .f32⟩ : BufTy).Contents (Elt F) → (⟨S100000x128, .f32⟩ : BufTy).Contents (Elt F)),
    binary main_v1 main_v6 main_v7 (mulf : (⟨S100000x128, .f32⟩ : BufTy).Contents (Elt F) → (⟨S100000x128, .f32⟩ : BufTy).Contents (Elt F) → (⟨S100000x128, .f32⟩ : BufTy).Contents (Elt F)),
    binary main_v3 main_v6 main_v8 (mulf : (⟨S100000x128, .f32⟩ : BufTy).Contents (Elt F) → (⟨S100000x128, .f32⟩ : BufTy).Contents (Elt F) → (⟨S100000x128, .f32⟩ : BufTy).Contents (Elt F)),
    binary main_v8 main_v6 main_v9 (mulf : (⟨S100000x128, .f32⟩ : BufTy).Contents (Elt F) → (⟨S100000x128, .f32⟩ : BufTy).Contents (Elt F) → (⟨S100000x128, .f32⟩ : BufTy).Contents (Elt F)),
    unary main_arg4 main_v10 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_arg3 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v13 (broadcastInDim S1600000 ![] bcast_S_S1600000 : (⟨S_, .i32⟩ : BufTy).Contents (Elt F) → (⟨S1600000, .i32⟩ : BufTy).Contents (Elt F)),
    binary main_arg3 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_arg3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v7 main_v16 main_v17 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v10 main_v18 (broadcastInDim S1600000x128 ![0, 1] bcast_S1600000x1_S1600000x128_0_1 : (⟨S1600000x1, .f32⟩ : BufTy).Contents (Elt F) → (⟨S1600000x128, .f32⟩ : BufTy).Contents (Elt F)),
    binary main_v18 main_v17 main_v19 (mulf : (⟨S1600000x128, .f32⟩ : BufTy).Contents (Elt F) → (⟨S1600000x128, .f32⟩ : BufTy).Contents (Elt F) → (⟨S1600000x128, .f32⟩ : BufTy).Contents (Elt F)),
    nullary main_cst_1 (constant S_ .f32 0x00000000#32),
    unary main_cst_1 main_v20 (broadcastInDim S100000x128 ![] bcast_S_S100000x128 : (⟨S_, .f32⟩ : BufTy).Contents (Elt F) → (⟨S100000x128, .f32⟩ : BufTy).Contents (Elt F)),
    unary main_arg2 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v23 (broadcastInDim S1600000x1 ![0] bcast_S1600000_S1600000x1_0 : (⟨S1600000, .f32⟩ : BufTy).Contents (Elt F) → (⟨S1600000x1, .f32⟩ : BufTy).Contents (Elt F)),
    nullary main_c_2 (constantI S_ 32 0#32),
    unary main_c_2 main_v24 (broadcastInDim S1600000 ![] bcast_S_S1600000 : (⟨S_, .i32⟩ : BufTy).Contents (Elt F) → (⟨S1600000, .i32⟩ : BufTy).Contents (Elt F)),
    binary main_arg3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v26 (broadcastInDim S1600000 ![] bcast_S_S1600000 : (⟨S_, .i32⟩ : BufTy).Contents (Elt F) → (⟨S1600000, .i32⟩ : BufTy).Contents (Elt F)),
    binary main_arg3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v9 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v31 main_v30 main_v32 (mulf : (⟨S1600000x128, .f32⟩ : BufTy).Contents (Elt F) → (⟨S1600000x128, .f32⟩ : BufTy).Contents (Elt F) → (⟨S1600000x128, .f32⟩ : BufTy).Contents (Elt F)),
    nullary main_cst_4 (constant S_ .f32 0x00000000#32),
    unary main_cst_4 main_v33 (broadcastInDim S100000x128 ![] bcast_S_S100000x128 : (⟨S_, .f32⟩ : BufTy).Contents (Elt F) → (⟨S100000x128, .f32⟩ : BufTy).Contents (Elt F)),
    unary main_arg2 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

-- one bind per operation, re-associated: the rewrite under the chain recurses once per statement
set_option maxRecDepth 4096 in
/-- @main is that line: the callees' definitions unfolded at their calls, sequencing re-associated. -/
theorem main_eq (c : Dev nD) : main (F := F) c = seq ops := by
  simp only [main, fn_elu.body, fn_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Every weakly fair execution of @main terminates, and every buffer ends at the fold of the line over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  What the reference's two results hold after its run.

  Read back through the line of host operations, result 0 is the aggregation (by the edges' rows, columns and first
  weights) of the host's mean message of the four matrix arguments, and result 1 the aggregation (second weights) of
  the host's variance message; no operation writes an argument. The host's messages are the specification's
  (`Cert.Message`), so each result is the aggregation of the specified message.
-/
import proofs.«125727_j25537875542212_1_alg».proof.Proof.RefRun
import proofs.«125727_j25537875542212_1_alg».proof.Proof.Message
import proofs.«125727_j25537875542212_1_alg».proof.Proof.Aggregate
import proofs.«125727_j25537875542212_1_alg».proof.Proof.LibHostWalk

set_option maxRecDepth 16384

noncomputable section

namespace Cert.ReferenceIdeal.Hand

open Cert.ReferenceIdeal Cert.ReferenceIdeal.Gen Cert.ReferenceIdeal.Facts₀ Idealize.ShloMosaic Idealize.ShloMosaic.TcCoe Idealize.SL.Sem Idealize.ShloMosaic.StableHlo
open Cert.Message Cert.Aggregate Cert.HostWalk

/-- The reference's products contract the features' second axis against the weights' first. -/
theorem plain : Cert.PlainDot.IsPlain dot_S100000x256_S256x128_S100000x128_1_0_0_1_n_n := ⟨rfl, rfl, rfl, rfl, rfl, rfl⟩

/-- Result 0 through the line, from any contents. -/
theorem read_v22 (V : Valuation τ sig (Elt Ideal)) :
    after (ops (F := Ideal)) V (main_v22 : DevRef τ sig)
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
          (hostMu dot_S100000x256_S256x128_S100000x128_1_0_0_1_n_n none Facts₀.bcast_S_S100000x128 (V (main_arg0 : DevRef τ sig)) (V (main_arg1 : DevRef τ sig)) (V (main_arg6 : DevRef τ sig)) (V (main_arg7 : DevRef τ sig)))
          (V (main_arg2 : DevRef τ sig)) (V (main_arg3 : DevRef τ sig)) (V (main_arg4 : DevRef τ sig)) := by
  walk_back []
  rfl

/-- Result 1 through the line, from any contents. -/
theorem read_v35 (V : Valuation τ sig (Elt Ideal)) :
    after (ops (F := Ideal)) V (main_v35 : DevRef τ sig)
      = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
          (hostSig dot_S100000x256_S256x128_S100000x128_1_0_0_1_n_n none Facts₀.bcast_S_S100000x128 (V (main_arg1 : DevRef τ sig)) (V (main_arg7 : DevRef τ sig)))
          (V (main_arg2 : DevRef τ sig)) (V (main_arg3 : DevRef τ sig)) (V (main_arg5 : DevRef τ sig)) := by
  walk_back []
  rfl

theorem read_arg0 (V : Valuation τ sig (Elt Ideal)) : after (ops (F := Ideal)) V (main_arg0 : DevRef τ sig) = V (main_arg0 : DevRef τ sig) := by
  walk_back []
theorem read_arg1 (V : Valuation τ sig (Elt Ideal)) : after (ops (F := Ideal)) V (main_arg1 : DevRef τ sig) = V (main_arg1 : DevRef τ sig) := by
  walk_back []
theorem read_arg2 (V : Valuation τ sig (Elt Ideal)) : after (ops (F := Ideal)) V (main_arg2 : DevRef τ sig) = V (main_arg2 : DevRef τ sig) := by
  walk_back []
theorem read_arg3 (V : Valuation τ sig (Elt Ideal)) : after (ops (F := Ideal)) V (main_arg3 : DevRef τ sig) = V (main_arg3 : DevRef τ sig) := by
  walk_back []
theorem read_arg4 (V : Valuation τ sig (Elt Ideal)) : after (ops (F := Ideal)) V (main_arg4 : DevRef τ sig) = V (main_arg4 : DevRef τ sig) := by
  walk_back []
theorem read_arg5 (V : Valuation τ sig (Elt Ideal)) : after (ops (F := Ideal)) V (main_arg5 : DevRef τ sig) = V (main_arg5 : DevRef τ sig) := by
  walk_back []
theorem read_arg6 (V : Valuation τ sig (Elt Ideal)) : after (ops (F := Ideal)) V (main_arg6 : DevRef τ sig) = V (main_arg6 : DevRef τ sig) := by
  walk_back []
theorem read_arg7 (V : Valuation τ sig (Elt Ideal)) : after (ops (F := Ideal)) V (main_arg7 : DevRef τ sig) = V (main_arg7 : DevRef τ sig) := by
  walk_back []

/-- The reference's run: each result at the aggregation of the specified message of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
            (msgMu (m ((c.tc : Thread nD τ).loc main_arg0)) (m ((c.tc : Thread nD τ).loc main_arg1)) (m ((c.tc : Thread nD τ).loc main_arg6)) (m ((c.tc : Thread nD τ).loc main_arg7)))
            (m ((c.tc : Thread nD τ).loc main_arg2)) (m ((c.tc : Thread nD τ).loc main_arg3)) (m ((c.tc : Thread nD τ).loc main_arg4))
      ∧ r.2.mem ((c.tc : Thread nD τ).loc main_v35)
        = aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1
            (msgSig (m ((c.tc : Thread nD τ).loc main_arg1)) (m ((c.tc : Thread nD τ).loc main_arg7)))
            (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (h c main_v22).trans ((read_v22 _).trans (congrArg (fun x => aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1 x _ _ _) (hostMu_eq _ plain none _ _ _ _ _))),
      (h c main_v35).trans ((read_v35 _).trans (congrArg (fun x => aggregate gather_S100000x128_S1600000x1_S1600000x128_1_0_n_n_0_1_1128 scatter_S100000x128_S1600000x1_S1600000x128_1_0_0_1 Facts₀.bcast_S_S100000x128 Facts₀.bcast_S1600000_S1600000x1_0 Facts₀.bcast_S_S1600000 Facts₀.bcast_S1600000x1_S1600000x128_0_1 x _ _ _) (hostSig_eq _ plain none _ _ _))),
      (h c main_arg0).trans (read_arg0 _),
      (h c main_arg1).trans (read_arg1 _),
      (h c main_arg2).trans (read_arg2 _),
      (h c main_arg3).trans (read_arg3 _),
      (h c main_arg4).trans (read_arg4 _),
      (h c main_arg5).trans (read_arg5 _),
      (h c main_arg6).trans (read_arg6 _),
      (h c main_arg7).trans (read_arg7 _)⟩)
    (run_fold m ρ)

end Cert.ReferenceIdeal.Hand

end
-- ==== Proof.lean ====
/-
  The certificate of a two-message graph layer.

  Both programs compute, for 100000 nodes with 256 features and 1 600 000 weighted edges, a mean message
  `elu (x·Wμ) · a` and a variance message `(relu (s·Wσ) · a) · a` with `a = exp (-relu (s·Wσ))`, and then add
  each edge's weighted message row into its destination row. The kernel program forms the messages in a pallas_call,
  4000 nodes at a point, and aggregates on the host; the reference does everything on the host, with jax's ELU.

  On the extended reals the two message tables are the same function of the arguments, entry by entry: each matrix
  product read at an entry is the same finite sum in both spellings, the two ELUs agree everywhere, and the remaining
  operations are the same pointwise ones (`Proof/Message.lean`). The kernel's 25 blocks are that function's blocks and
  cover the table (`Proof/KernelValue.lean`); the reference's line of host operations composes to it
  (`Proof/RefRun.lean`, `Proof/RefValue.lean`). The aggregation is the same function of a table in both programs
  (`Proof/Aggregate.lean`) and is never opened. No finiteness is used: nothing is distributed or cancelled.

  The kernel's frames are the generated ones; the reference's is its run with the results dropped. The idealization
  rewrote no operation, so there is nothing to preserve.
-/
import proofs.«125727_j25537875542212_1_alg».proof.Defs
import proofs.«125727_j25537875542212_1_alg».proof.Proof.Gen.Kernel
import proofs.«125727_j25537875542212_1_alg».proof.Proof.Gen.Kernel.Frame
import proofs.«125727_j25537875542212_1_alg».proof.Proof.Gen.KernelIdeal
import proofs.«125727_j25537875542212_1_alg».proof.Proof.Gen.KernelIdeal.Frame
import proofs.«125727_j25537875542212_1_alg».proof.Proof.Gen.ReferenceIdeal
import proofs.«125727_j25537875542212_1_alg».proof.Proof.Gen.Pre_finite_inputs
import proofs.«125727_j25537875542212_1_alg».proof.Proof.KernelValue
import proofs.«125727_j25537875542212_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Hand.run m ρ)

theorem preserves : Cert.preserves_Kernel_KernelIdeal := trivial

/-- From memories agreeing on the arguments both programs end with each result at the aggregation of the same
    message table of the same arguments. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Hand.run m' ρ')
  obtain ⟨a0, a1, a2, a3, a4, a5, a6, a7⟩ := hagree c
  refine ⟨(h c).1.trans ?_, (h c).2.1.trans ?_, (h c).2.2⟩
  · rw [a0, a1, a2, a3, a4, a6, a7]
    rfl
  · rw [a1, a2, a3, a5, a7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
